-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x80x192x192 : Shape := ⟨4, ![16, 80, 192, 192]⟩
abbrev S_ : Shape := ⟨0, ![]⟩

class Facts : Prop where
  bcast_S_S16x80x192x192 : S_.BroadcastsInDim S16x80x192x192 (![] : Fin 0 → Fin S16x80x192x192.rank)
  reducesTo_S16x80x192x192_S_d0_1_2_3 : S16x80x192x192.ReducesTo [0, 1, 2, 3] S_
  h_S_ : 0 < S_.numel

variable [Facts]

def fn {F : FTy → Type} [FloatOps F] (main_arg0 : FVec F S16x80x192x192 .f32) : IVec S_ 1 :=
  let main_v0 : FVec F S16x80x192x192 .f32 := Host.absf main_arg0
  let main_cst : FVec F S_ .f32 := constant S_ .f32 0x7F800000#32
  let main_v1 : FVec F S16x80x192x192 .f32 := broadcastInDim S16x80x192x192 ![] bcast_S_S16x80x192x192 main_cst
  let main_v2 : IVec S16x80x192x192 1 := cmpf .olt main_v0 main_v1
  let main_c : IVec S_ 1 := constantI S_ 1 1#1
  let main_v3 : IVec S_ 1 := (fun x v => Host.reduce IntOp.andi x v reducesTo_S16x80x192x192_S_d0_1_2_3 h_S_) main_v2 main_c
  main_v3
-- ==== Kernel.lean ====
abbrev S16x80x192x192 : Shape := ⟨4, ![16, 80, 192, 192]⟩
abbrev S1280x192x192 : Shape := ⟨3, ![1280, 192, 192]⟩
abbrev S8x192x192 : Shape := ⟨3, ![8, 192, 192]⟩
abbrev S8x1x192 : Shape := ⟨3, ![8, 1, 192]⟩
abbrev S8x194x192 : Shape := ⟨3, ![8, 194, 192]⟩
abbrev S8x192x1 : Shape := ⟨3, ![8, 192, 1]⟩
abbrev S8x192x194 : Shape := ⟨3, ![8, 192, 194]⟩
abbrev S8x2x192 : Shape := ⟨3, ![8, 2, 192]⟩
abbrev S8x196x192 : Shape := ⟨3, ![8, 196, 192]⟩
abbrev S8x192x2 : Shape := ⟨3, ![8, 192, 2]⟩
abbrev S8x192x196 : Shape := ⟨3, ![8, 192, 196]⟩
abbrev S8x3x192 : Shape := ⟨3, ![8, 3, 192]⟩
abbrev S8x198x192 : Shape := ⟨3, ![8, 198, 192]⟩
abbrev S8x192x3 : Shape := ⟨3, ![8, 192, 3]⟩
abbrev S8x192x198 : Shape := ⟨3, ![8, 192, 198]⟩

abbrev nBuf : Space → Nat
  | .hbm => 4
  | .vmem => 4
  | .smem => 0
  | _ => 0

abbrev bufTy : (tb : Table) → Fin (tcTables nBuf tb) → BufTy
  | .hbm, ⟨0, _⟩ => ⟨S16x80x192x192, .f32⟩
  | .hbm, ⟨1, _⟩ => ⟨S1280x192x192, .f32⟩
  | .hbm, ⟨2, _⟩ => ⟨S1280x192x192, .f32⟩
  | .hbm, ⟨3, _⟩ => ⟨S16x80x192x192, .f32⟩
  | .local _ .vmem, ⟨0, _⟩ => ⟨S8x192x192, .f32⟩
  | .local _ .vmem, ⟨1, _⟩ => ⟨S8x192x192, .f32⟩
  | .local _ .vmem, ⟨2, _⟩ => ⟨S8x192x192, .f32⟩
  | .local _ .vmem, ⟨3, _⟩ => ⟨S8x192x192, .f32⟩
  | _, _ => ⟨S16x80x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![160], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x80x192x192_S1280x192x192 : S16x80x192x192.ShapeCasts S1280x192x192
  inb_S8x192x192_S8x192x192_0_0_0 : ∀ a, (![0, 0, 0] : Fin 3 → Nat) a + S8x192x192.size a ≤ S8x192x192.size a
  h_S8x192x192 : 0 < S8x192x192.numel
  shapeCasts_S8x192x192_S8x192x192 : S8x192x192.ShapeCasts S8x192x192
  concatenates_S8x1x192_S8x192x192_S8x1x192_S8x194x192_d1 : Shape.Concatenates [S8x1x192, S8x192x192, S8x1x192] S8x194x192 1
  slices_S8x194x192_o0_0_0_S8x192x192 : S8x194x192.Slices ![0, 0, 0] S8x192x192
  slices_S8x194x192_o0_1_0_S8x192x192 : S8x194x192.Slices ![0, 1, 0] S8x192x192
  slices_S8x194x192_o0_2_0_S8x192x192 : S8x194x192.Slices ![0, 2, 0] S8x192x192
  concatenates_S8x192x1_S8x192x192_S8x192x1_S8x192x194_d2 : Shape.Concatenates [S8x192x1, S8x192x192, S8x192x1] S8x192x194 2
  slices_S8x192x194_o0_0_0_S8x192x192 : S8x192x194.Slices ![0, 0, 0] S8x192x192
  slices_S8x192x194_o0_0_1_S8x192x192 : S8x192x194.Slices ![0, 0, 1] S8x192x192
  slices_S8x192x194_o0_0_2_S8x192x192 : S8x192x194.Slices ![0, 0, 2] S8x192x192
  natLt_1_32 : 1 < 32
  concatenates_S8x2x192_S8x192x192_S8x2x192_S8x196x192_d1 : Shape.Concatenates [S8x2x192, S8x192x192, S8x2x192] S8x196x192 1
  slices_S8x196x192_o0_0_0_S8x192x192 : S8x196x192.Slices ![0, 0, 0] S8x192x192
  slices_S8x196x192_o0_1_0_S8x192x192 : S8x196x192.Slices ![0, 1, 0] S8x192x192
  slices_S8x196x192_o0_2_0_S8x192x192 : S8x196x192.Slices ![0, 2, 0] S8x192x192
  slices_S8x196x192_o0_3_0_S8x192x192 : S8x196x192.Slices ![0, 3, 0] S8x192x192
  slices_S8x196x192_o0_4_0_S8x192x192 : S8x196x192.Slices ![0, 4, 0] S8x192x192
  concatenates_S8x192x2_S8x192x192_S8x192x2_S8x192x196_d2 : Shape.Concatenates [S8x192x2, S8x192x192, S8x192x2] S8x192x196 2
  slices_S8x192x196_o0_0_0_S8x192x192 : S8x192x196.Slices ![0, 0, 0] S8x192x192
  slices_S8x192x196_o0_0_1_S8x192x192 : S8x192x196.Slices ![0, 0, 1] S8x192x192
  slices_S8x192x196_o0_0_2_S8x192x192 : S8x192x196.Slices ![0, 0, 2] S8x192x192
  slices_S8x192x196_o0_0_3_S8x192x192 : S8x192x196.Slices ![0, 0, 3] S8x192x192
  slices_S8x192x196_o0_0_4_S8x192x192 : S8x192x196.Slices ![0, 0, 4] S8x192x192
  concatenates_S8x3x192_S8x192x192_S8x3x192_S8x198x192_d1 : Shape.Concatenates [S8x3x192, S8x192x192, S8x3x192] S8x198x192 1
  slices_S8x198x192_o0_0_0_S8x192x192 : S8x198x192.Slices ![0, 0, 0] S8x192x192
  slices_S8x198x192_o0_1_0_S8x192x192 : S8x198x192.Slices ![0, 1, 0] S8x192x192
  slices_S8x198x192_o0_2_0_S8x192x192 : S8x198x192.Slices ![0, 2, 0] S8x192x192
  slices_S8x198x192_o0_3_0_S8x192x192 : S8x198x192.Slices ![0, 3, 0] S8x192x192
  slices_S8x198x192_o0_4_0_S8x192x192 : S8x198x192.Slices ![0, 4, 0] S8x192x192
  slices_S8x198x192_o0_5_0_S8x192x192 : S8x198x192.Slices ![0, 5, 0] S8x192x192
  slices_S8x198x192_o0_6_0_S8x192x192 : S8x198x192.Slices ![0, 6, 0] S8x192x192
  concatenates_S8x192x3_S8x192x192_S8x192x3_S8x192x198_d2 : Shape.Concatenates [S8x192x3, S8x192x192, S8x192x3] S8x192x198 2
  slices_S8x192x198_o0_0_0_S8x192x192 : S8x192x198.Slices ![0, 0, 0] S8x192x192
  slices_S8x192x198_o0_0_1_S8x192x192 : S8x192x198.Slices ![0, 0, 1] S8x192x192
  slices_S8x192x198_o0_0_2_S8x192x192 : S8x192x198.Slices ![0, 0, 2] S8x192x192
  slices_S8x192x198_o0_0_3_S8x192x192 : S8x192x198.Slices ![0, 0, 3] S8x192x192
  slices_S8x192x198_o0_0_4_S8x192x192 : S8x192x198.Slices ![0, 0, 4] S8x192x192
  slices_S8x192x198_o0_0_5_S8x192x192 : S8x192x198.Slices ![0, 0, 5] S8x192x192
  slices_S8x192x198_o0_0_6_S8x192x192 : S8x192x198.Slices ![0, 0, 6] S8x192x192
  shapeCasts_S1280x192x192_S16x80x192x192 : S1280x192x192.ShapeCasts S16x80x192x192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x192x192.size a ≤ S1280x192x192.size a
  hwx0_0 : ∀ i : grid0.Coords, EltTy.bits .f32 = 32 ∨ (Rect.block (s := S1280x192x192) S8x192x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x192x192.size a ≤ S1280x192x192.size a
  hwx0_1 : ∀ i : grid0.Coords, EltTy.bits .f32 = 32 ∨ (Rect.block (s := S1280x192x192) S8x192x192.size (cc0_transform_1 i) (hinb0_1 i)).WholeWords (EltTy.packing .f32)

variable [Facts₀]

abbrev win0_0 : Pipeline.Window sig grid0 :=
  Pipeline.Window.ofSpec (Memref.whole main_v0) S8x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x192x192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x80x192x192 : Shape := ⟨4, ![16, 80, 192, 192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16x80x192x192, .f32⟩
  | .hbm, ⟨1, _⟩ => ⟨S_, .f32⟩
  | .hbm, ⟨2, _⟩ => ⟨S_, .f32⟩
  | .hbm, ⟨3, _⟩ => ⟨S16x80x192x192, .f32⟩
  | .hbm, ⟨4, _⟩ => ⟨S16x80x192x192, .i1⟩
  | .hbm, ⟨5, _⟩ => ⟨S_, .f32⟩
  | .hbm, ⟨6, _⟩ => ⟨S_, .f32⟩
  | .hbm, ⟨7, _⟩ => ⟨S16x80x192x192, .f32⟩
  | .hbm, ⟨8, _⟩ => ⟨S16x80x192x192, .i1⟩
  | .hbm, ⟨9, _⟩ => ⟨S_, .f32⟩
  | .hbm, ⟨10, _⟩ => ⟨S_, .f32⟩
  | .hbm, ⟨11, _⟩ => ⟨S16x80x192x192, .f32⟩
  | .hbm, ⟨12, _⟩ => ⟨S16x80x192x192, .i1⟩
  | .hbm, ⟨13, _⟩ => ⟨S16x80x192x192, .f32⟩
  | .hbm, ⟨14, _⟩ => ⟨S16x80x192x192, .f32⟩
  | .hbm, ⟨15, _⟩ => ⟨S16x80x192x192, .f32⟩
  | .hbm, ⟨16, _⟩ => ⟨S16x80x192x192, .f32⟩
  | .hbm, ⟨17, _⟩ => ⟨S16x80x192x192, .f32⟩
  | .hbm, ⟨18, _⟩ => ⟨S16x80x192x192, .f32⟩
  | _, _ => ⟨S16x80x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x80x192x192_S16x80x192x192_w1s1p0_0_w1s1p0_0_w3s1p1_1_w3s1p1_1 : S16x80x192x192.ReduceWindows (![1, 1, 3, 3] : Fin 4 → Nat) ![1, 1, 1, 1] ![0, 0, 1, 1] ![0, 0, 1, 1] S16x80x192x192
  h_S_ : 0 < S_.numel
  reduceWindows_S16x80x192x192_S16x80x192x192_w1s1p0_0_w1s1p0_0_w5s1p2_2_w5s1p2_2 : S16x80x192x192.ReduceWindows (![1, 1, 5, 5] : Fin 4 → Nat) ![1, 1, 1, 1] ![0, 0, 2, 2] ![0, 0, 2, 2] S16x80x192x192
  reduceWindows_S16x80x192x192_S16x80x192x192_w1s1p0_0_w1s1p0_0_w7s1p3_3_w7s1p3_3 : S16x80x192x192.ReduceWindows (![1, 1, 7, 7] : Fin 4 → Nat) ![1, 1, 1, 1] ![0, 0, 3, 3] ![0, 0, 3, 3] S16x80x192x192

variable [Facts₀]

class Facts : Prop extends Facts₀ where

variable [Facts]
-- ==== Proof.LibWindowMax.lean ====
/-
  Sliding-window maxima over the extended reals.

  A row of extended reals padded by bottoms and read at a natural position (`padRead`); the maximum of a plane over a
  k × k window whose corner sits p rows and p columns before the centre, padded by bottoms (`windowMax`); and three
  spellings of it read at an index:
  * the host's `reduce_window` with body `max` from the bottom element over the last two axes of a four-axis array
    (a left fold over the window's positions: a supremum, since `max` is associative, commutative and idempotent and
    the bottom element is its identity);
  * a three-axis array padded by bottom slabs along its middle (or last) axis and cut back to its own extent at an
    offset: the array read through `padRead` along that axis;
  * the separable form — the maximum along the rows of the maxima along the columns — which is the maximum over the
    square, because a supremum of suprema may be taken in either order and padding commutes with a supremum.
-/
import Idealize.ShloMosaic.PureOps.Ideal
import Idealize.ShloMosaic.Lib.ValueIdx
import Idealize.ShloMosaic.Lib.Pipeline.Value

noncomputable section

namespace WindowMax

open Idealize.ShloMosaic Idealize.ShloMosaic.ValueIdx

/-! ## A fold of `max` is bounded exactly when its start and every term are -/

theorem foldl_max_le_iff {ι : Type} (g : ι → EReal) (l : List ι) (v z : EReal) :
    l.foldl (fun r n => max r (g n)) v ≤ z ↔ v ≤ z ∧ ∀ n ∈ l, g n ≤ z := by
  induction l generalizing v with
  | nil => simp
  | cons a l ih =>
    rw [List.foldl_cons, ih, max_le_iff]
    simp only [List.mem_cons, forall_eq_or_imp]
    exact and_assoc

/-! ## A padded row read at a position -/

/-- Entry `a - p` of the row `f` when position `a` of the row padded by `p` bottoms in front falls inside it, the
    bottom element elsewhere. -/
def padRead {n : ℕ} (f : Fin n → EReal) (p a : ℕ) : EReal :=
  if h : p ≤ a ∧ a - p < n then f ⟨a - p, h.2⟩ else ⊥

/-- Padding commutes with a supremum of rows. -/
theorem padRead_sup {n : ℕ} (k : ℕ) (g : ℕ → Fin n → EReal) (p a : ℕ) :
    padRead (fun c => (Finset.range k).sup fun d => g d c) p a = (Finset.range k).sup fun d => padRead (g d) p a := by
  unfold padRead
  by_cases h : p ≤ a ∧ a - p < n
  · simp only [dif_pos h]
  · simp only [dif_neg h, Finset.sup_bot]

/-- The maximum of the plane `P`, padded by `p` bottoms on every side, over the `k × k` window whose first corner is
    at row `r`, column `q` of the padded plane. -/
def windowMax {H W : ℕ} (k p : ℕ) (P : Fin H → Fin W → EReal) (r q : ℕ) : EReal :=
  (Finset.range k).sup fun dw => (Finset.range k).sup fun dh =>
    padRead (fun c => padRead (fun a => P a c) p (r + dh)) p (q + dw)

/-- The separable form: the window maximum along the columns of the window maxima along the rows. -/
theorem sup_padRead_sup_padRead {H W : ℕ} (k p : ℕ) (P : Fin H → Fin W → EReal) (r q : ℕ) :
    ((Finset.range k).sup fun dw => padRead (fun c => (Finset.range k).sup fun dh => padRead (fun a => P a c) p (r + dh)) p (q + dw))
      = windowMax k p P r q := by
  unfold windowMax
  refine Finset.sup_congr rfl fun dw _ => ?_
  exact padRead_sup k (fun dh c => padRead (fun a => P a c) p (r + dh)) p (q + dw)

theorem sup_range_three (g : ℕ → EReal) : (Finset.range 3).sup g = max (max (g 0) (g 1)) (g 2) := by
  refine eq_of_forall_ge_iff fun z => ?_
  simp only [Finset.sup_le_iff, Finset.mem_range, max_le_iff]
  constructor
  · intro h
    exact ⟨⟨h 0 (by norm_num), h 1 (by norm_num)⟩, h 2 (by norm_num)⟩
  · rintro ⟨⟨h0, h1⟩, h2⟩ b hb
    interval_cases b <;> assumption

theorem sup_range_five (g : ℕ → EReal) :
    (Finset.range 5).sup g = max (max (max (max (g 0) (g 1)) (g 2)) (g 3)) (g 4) := by
  refine eq_of_forall_ge_iff fun z => ?_
  simp only [Finset.sup_le_iff, Finset.mem_range, max_le_iff]
  constructor
  · intro h
    exact ⟨⟨⟨⟨h 0 (by norm_num), h 1 (by norm_num)⟩, h 2 (by norm_num)⟩, h 3 (by norm_num)⟩, h 4 (by norm_num)⟩
  · rintro ⟨⟨⟨⟨h0, h1⟩, h2⟩, h3⟩, h4⟩ b hb
    interval_cases b <;> assumption

theorem sup_range_seven (g : ℕ → EReal) :
    (Finset.range 7).sup g = max (max (max (max (max (max (g 0) (g 1)) (g 2)) (g 3)) (g 4)) (g 5)) (g 6) := by
  refine eq_of_forall_ge_iff fun z => ?_
  simp only [Finset.sup_le_iff, Finset.mem_range, max_le_iff]
  constructor
  · intro h
    exact ⟨⟨⟨⟨⟨⟨h 0 (by norm_num), h 1 (by norm_num)⟩, h 2 (by norm_num)⟩, h 3 (by norm_num)⟩, h 4 (by norm_num)⟩,
      h 5 (by norm_num)⟩, h 6 (by norm_num)⟩
  · rintro ⟨⟨⟨⟨⟨⟨h0, h1⟩, h2⟩, h3⟩, h4⟩, h5⟩, h6⟩ b hb
    interval_cases b <;> assumption

/-! ## The host's window reduction by `max` from the bottom element, over the last two axes -/

/-- One position `i` of the window at the index `(n, c, r, q)`: the padded operand there — the operand's element where the
    position falls inside the operand, the bottom element where it falls in the padding — is the plane read through two
    padded reads (whatever decision procedure the conditional carries). -/
theorem window_cell {A B H W : ℕ} (k p : ℕ) (x : (⟨4, ![A, B, H, W]⟩ : Shape).Idx → EReal)
    (n : Fin A) (c : Fin B) (r : Fin H) (q : Fin W) (i : (⟨4, ![1, 1, k, k]⟩ : Shape).Idx)
    (hrk : (⟨4, ![A, B, H, W]⟩ : Shape).rank = (⟨4, ![A, B, H, W]⟩ : Shape).rank)
    {inst : Decidable (∀ a : Fin 4, (![0, 0, p, p] : Fin 4 → ℕ) a ≤ ((ix4 n c r q) (a.cast hrk)).val * (![1, 1, 1, 1] : Fin 4 → ℕ) a + (i a).val
          ∧ ((ix4 n c r q) (a.cast hrk)).val * (![1, 1, 1, 1] : Fin 4 → ℕ) a + (i a).val - (![0, 0, p, p] : Fin 4 → ℕ) a
              < (⟨4, ![A, B, H, W]⟩ : Shape).size a)} :
    @dite EReal _ inst
      (fun hin => x (fun a => ⟨((ix4 n c r q) (a.cast hrk)).val * (![1, 1, 1, 1] : Fin 4 → ℕ) a + (i a).val - (![0, 0, p, p] : Fin 4 → ℕ) a, (hin a).2⟩))
      (fun _ => ⊥)
    = padRead (fun c' => padRead (fun a' => x (ix4 n c a' c')) p (r.val + (i 2).val)) p (q.val + (i 3).val) := by
  have i0 : (i 0).val = 0 := Nat.lt_one_iff.mp (i 0).isLt
  have i1 : (i 1).val = 0 := Nat.lt_one_iff.mp (i 1).isLt
  unfold padRead
  dsimp only
  by_cases hq : p ≤ q.val + (i 3).val ∧ q.val + (i 3).val - p < W
  · by_cases hr : p ≤ r.val + (i 2).val ∧ r.val + (i 2).val - p < H
    · have hin : ∀ a : Fin 4, (![0, 0, p, p] : Fin 4 → ℕ) a ≤ ((ix4 n c r q) (a.cast hrk)).val * (![1, 1, 1, 1] : Fin 4 → ℕ) a + (i a).val
          ∧ ((ix4 n c r q) (a.cast hrk)).val * (![1, 1, 1, 1] : Fin 4 → ℕ) a + (i a).val - (![0, 0, p, p] : Fin 4 → ℕ) a
              < (⟨4, ![A, B, H, W]⟩ : Shape).size a := by
        intro a
        match a with
        | ⟨0, _⟩ => exact ⟨Nat.zero_le _, by show n.val * 1 + (i 0).val - 0 < A; have := n.isLt; omega⟩
        | ⟨1, _⟩ => exact ⟨Nat.zero_le _, by show c.val * 1 + (i 1).val - 0 < B; have := c.isLt; omega⟩
        | ⟨2, _⟩ => exact ⟨by show p ≤ r.val * 1 + (i 2).val; omega, by show r.val * 1 + (i 2).val - p < H; omega⟩
        | ⟨3, _⟩ => exact ⟨by show p ≤ q.val * 1 + (i 3).val; omega, by show q.val * 1 + (i 3).val - p < W; omega⟩
      rw [dif_pos hin, dif_pos hq, dif_pos hr]
      refine congrArg x (funext fun a => Fin.ext ?_)
      match a with
      | ⟨0, _⟩ => show n.val * 1 + (i 0).val - 0 = n.val; omega
      | ⟨1, _⟩ => show c.val * 1 + (i 1).val - 0 = c.val; omega
      | ⟨2, _⟩ => show r.val * 1 + (i 2).val - p = r.val + (i 2).val - p; omega
      | ⟨3, _⟩ => show q.val * 1 + (i 3).val - p = q.val + (i 3).val - p; omega
    · rw [dif_pos hq, dif_neg hr, dif_neg]
      intro hin
      apply hr
      have h2 := hin 2
      exact ⟨by have := h2.1; change p ≤ r.val * 1 + (i 2).val at this; omega,
        by have := h2.2; change r.val * 1 + (i 2).val - p < H at this; omega⟩
  · rw [dif_neg hq, dif_neg]
    intro hin
    apply hq
    have h3 := hin 3
    exact ⟨by have := h3.1; change p ≤ q.val * 1 + (i 3).val at this; omega,
      by have := h3.2; change q.val * 1 + (i 3).val - p < W at this; omega⟩

/-- **The host's `reduce_window` with body `max` from the bottom element, window `[1, 1, k, k]`, stride one and `p`
    bottoms of padding on each side of the last two axes, read at an index**: the window maximum of the index's plane. -/
theorem reduceWindow_max_apply {A B H W : ℕ} (k p : ℕ) (x : (⟨4, ![A, B, H, W]⟩ : Shape).Idx → EReal)
    (init : (⟨0, ![]⟩ : Shape).Idx → EReal) (hinit : ∀ j, init j = ⊥)
    (h : (⟨4, ![A, B, H, W]⟩ : Shape).ReduceWindows ![1, 1, k, k] ![1, 1, 1, 1] ![0, 0, p, p] ![0, 0, p, p] ⟨4, ![A, B, H, W]⟩)
    (hu : 0 < (⟨0, ![]⟩ : Shape).numel) (n : Fin A) (c : Fin B) (r : Fin H) (q : Fin W) :
    Host.reduceWindow (max : EReal → EReal → EReal) ![1, 1, k, k] ![1, 1, 1, 1] ![0, 0, p, p] ![0, 0, p, p] x init h hu (ix4 n c r q)
      = windowMax k p (fun a b => x (ix4 n c a b)) r.val q.val := by
  refine eq_of_forall_ge_iff fun z => ?_
  unfold Host.reduceWindow
  dsimp only
  rw [foldl_max_le_iff, hinit]
  unfold windowMax
  simp only [Finset.sup_le_iff, Finset.mem_range, List.mem_finRange, forall_true_left, bot_le, true_and]
  constructor
  · intro hN dw hdw dh hdh
    have h1 := hN ((⟨4, ![1, 1, k, k]⟩ : Shape).rowMajor (ix4 (0 : Fin 1) (0 : Fin 1) (⟨dh, hdh⟩ : Fin k) (⟨dw, hdw⟩ : Fin k)))
    have h2 := le_of_eq_of_le (window_cell k p x n c r q _ h.1.symm).symm h1
    rw [Equiv.symm_apply_apply] at h2
    exact h2
  · intro hP m
    exact le_of_eq_of_le (window_cell k p x n c r q _ h.1.symm)
      (hP _ (((⟨4, ![1, 1, k, k]⟩ : Shape).rowMajor.symm m) 3).isLt _ (((⟨4, ![1, 1, k, k]⟩ : Shape).rowMajor.symm m) 2).isLt)

/-! ## A three-axis array padded by bottom slabs along one axis and cut back to its own extent at an offset -/

/-- Along the MIDDLE axis (the slabs' value `v` is the bottom element, `hv`): the cut at offset `o` of `[⊥-slab of p rows, x, ⊥-slab of p rows]`, read at `(b, r, q)`, is
    column `q` of plane `b` of `x` read through the padding at position `r + o`. -/
theorem slice_pad_mid_apply {A H W : ℕ} (p Hp o : ℕ) (hHp : Hp = p + H + p)
    (x : (⟨3, ![A, H, W]⟩ : Shape).Idx → EReal) (v : EReal) (hv : v = ⊥)
    (hc : Shape.Concatenates [(⟨3, ![A, p, W]⟩ : Shape), ⟨3, ![A, H, W]⟩, ⟨3, ![A, p, W]⟩] ⟨3, ![A, Hp, W]⟩ 1)
    (hs : (⟨3, ![A, Hp, W]⟩ : Shape).Slices ![0, o, 0] ⟨3, ![A, H, W]⟩)
    (b : Fin A) (r : Fin H) (q : Fin W) :
    extractStridedSlice ⟨3, ![A, H, W]⟩ ![0, o, 0]
      (concatenate ⟨3, ![A, Hp, W]⟩ 1
        [⟨⟨3, ![A, p, W]⟩, broadcast ⟨3, ![A, p, W]⟩ v⟩, ⟨⟨3, ![A, H, W]⟩, x⟩,
          ⟨⟨3, ![A, p, W]⟩, broadcast ⟨3, ![A, p, W]⟩ v⟩] hc) hs (ix3 b r q)
      = padRead (fun a => x (ix3 b a q)) p (r.val + o) := by
  subst hv
  have hso : o + H ≤ Hp := hs.2 1
  have hr := r.isLt
  have hlt : o + r.val < Hp := by omega
  refine (extractStridedSlice_apply ![0, o, 0] _ hs (ix3 b r q) (ix3 b ⟨o + r.val, hlt⟩ q) ?_).trans ?_
  · intro a
    match a with
    | ⟨0, _⟩ => show b.val = 0 + b.val; omega
    | ⟨1, _⟩ => rfl
    | ⟨2, _⟩ => show q.val = 0 + q.val; omega
  · have key := concatenate_apply_piece (t := ⟨3, ![A, Hp, W]⟩) 1
      [⟨⟨3, ![A, p, W]⟩, broadcast ⟨3, ![A, p, W]⟩ (⊥ : EReal)⟩, ⟨⟨3, ![A, H, W]⟩, x⟩,
        ⟨⟨3, ![A, p, W]⟩, broadcast ⟨3, ![A, p, W]⟩ (⊥ : EReal)⟩] hc (ix3 b ⟨o + r.val, hlt⟩ q)
    unfold padRead
    by_cases h1 : r.val + o < p
    · rw [dif_neg (by omega)]
      exact key 0 (by simp) _ _ rfl rfl 0 rfl (ix3 b ⟨o + r.val, by omega⟩ q)
        (fun b' hb' => match b', hb' with
          | ⟨0, _⟩, _ => rfl
          | ⟨1, _⟩, hb' => absurd rfl hb'
          | ⟨2, _⟩, _ => rfl)
        (by show 0 + (o + r.val) = o + r.val; omega)
    · by_cases h2 : r.val + o - p < H
      · rw [dif_pos ⟨by omega, h2⟩]
        exact key 1 (by simp) _ _ rfl rfl p (by simp) (ix3 b ⟨r.val + o - p, h2⟩ q)
          (fun b' hb' => match b', hb' with
            | ⟨0, _⟩, _ => rfl
            | ⟨1, _⟩, hb' => absurd rfl hb'
            | ⟨2, _⟩, _ => rfl)
          (by show p + (r.val + o - p) = o + r.val; omega)
      · rw [dif_neg (fun h => h2 h.2)]
        exact key 2 (by simp) _ _ rfl rfl (p + H) (by simp) (ix3 b ⟨o + r.val - (p + H), by omega⟩ q)
          (fun b' hb' => match b', hb' with
            | ⟨0, _⟩, _ => rfl
            | ⟨1, _⟩, hb' => absurd rfl hb'
            | ⟨2, _⟩, _ => rfl)
          (by show p + H + (o + r.val - (p + H)) = o + r.val; omega)

/-- Along the LAST axis (the slabs' value `v` is the bottom element, `hv`): the cut at offset `o` of `[⊥-slab of p columns, x, ⊥-slab of p columns]`, read at `(b, r, q)`,
    is row `r` of plane `b` of `x` read through the padding at position `q + o`. -/
theorem slice_pad_last_apply {A H W : ℕ} (p Wp o : ℕ) (hWp : Wp = p + W + p)
    (x : (⟨3, ![A, H, W]⟩ : Shape).Idx → EReal) (v : EReal) (hv : v = ⊥)
    (hc : Shape.Concatenates [(⟨3, ![A, H, p]⟩ : Shape), ⟨3, ![A, H, W]⟩, ⟨3, ![A, H, p]⟩] ⟨3, ![A, H, Wp]⟩ 2)
    (hs : (⟨3, ![A, H, Wp]⟩ : Shape).Slices ![0, 0, o] ⟨3, ![A, H, W]⟩)
    (b : Fin A) (r : Fin H) (q : Fin W) :
    extractStridedSlice ⟨3, ![A, H, W]⟩ ![0, 0, o]
      (concatenate ⟨3, ![A, H, Wp]⟩ 2
        [⟨⟨3, ![A, H, p]⟩, broadcast ⟨3, ![A, H, p]⟩ v⟩, ⟨⟨3, ![A, H, W]⟩, x⟩,
          ⟨⟨3, ![A, H, p]⟩, broadcast ⟨3, ![A, H, p]⟩ v⟩] hc) hs (ix3 b r q)
      = padRead (fun c => x (ix3 b r c)) p (q.val + o) := by
  subst hv
  have hso : o + W ≤ Wp := hs.2 2
  have hq := q.isLt
  have hlt : o + q.val < Wp := by omega
  refine (extractStridedSlice_apply ![0, 0, o] _ hs (ix3 b r q) (ix3 b r ⟨o + q.val, hlt⟩) ?_).trans ?_
  · intro a
    match a with
    | ⟨0, _⟩ => show b.val = 0 + b.val; omega
    | ⟨1, _⟩ => show r.val = 0 + r.val; omega
    | ⟨2, _⟩ => rfl
  · have key := concatenate_apply_piece (t := ⟨3, ![A, H, Wp]⟩) 2
      [⟨⟨3, ![A, H, p]⟩, broadcast ⟨3, ![A, H, p]⟩ (⊥ : EReal)⟩, ⟨⟨3, ![A, H, W]⟩, x⟩,
        ⟨⟨3, ![A, H, p]⟩, broadcast ⟨3, ![A, H, p]⟩ (⊥ : EReal)⟩] hc (ix3 b r ⟨o + q.val, hlt⟩)
    unfold padRead
    by_cases h1 : q.val + o < p
    · rw [dif_neg (by omega)]
      exact key 0 (by simp) _ _ rfl rfl 0 rfl (ix3 b r ⟨o + q.val, by omega⟩)
        (fun b' hb' => match b', hb' with
          | ⟨0, _⟩, _ => rfl
          | ⟨1, _⟩, _ => rfl
          | ⟨2, _⟩, hb' => absurd rfl hb')
        (by show 0 + (o + q.val) = o + q.val; omega)
    · by_cases h2 : q.val + o - p < W
      · rw [dif_pos ⟨by omega, h2⟩]
        exact key 1 (by simp) _ _ rfl rfl p (by simp) (ix3 b r ⟨q.val + o - p, h2⟩)
          (fun b' hb' => match b', hb' with
            | ⟨0, _⟩, _ => rfl
            | ⟨1, _⟩, _ => rfl
            | ⟨2, _⟩, hb' => absurd rfl hb')
          (by show p + (q.val + o - p) = o + q.val; omega)
      · rw [dif_neg (fun h => h2 h.2)]
        exact key 2 (by simp) _ _ rfl rfl (p + W) (by simp) (ix3 b r ⟨o + q.val - (p + W), by omega⟩)
          (fun b' hb' => match b', hb' with
            | ⟨0, _⟩, _ => rfl
            | ⟨1, _⟩, _ => rfl
            | ⟨2, _⟩, hb' => absurd rfl hb')
          (by show p + W + (o + q.val - (p + W)) = o + q.val; omega)

end WindowMax

end
-- ==== Proof.Spec.lean ====
/-
  What both programs compute, entry by entry.

  For a plane P of 192 × 192 extended reals and an entry (r, q): the entry times three 0/1 factors, one per window size
  k = 3, 5, 7 — the factor is 1 exactly when the maximum of P over the k × k window centred at (r, q), with −∞ outside
  the plane, equals the entry. (The comparison and its conversion to a number are kept as the machine's own two
  operations: both programs apply the same ones to the same two values.) Over a stack of planes the function acts on
  each plane by itself.
-/
import proofs.«174224_j73598559584661_2_alg».proof.Proof.LibWindowMax
import Idealize.ShloMosaic.PureOps.Ideal
import Idealize.ShloMosaic.Lib.ValueIdx

noncomputable section

namespace Cert.Spec

open Idealize.ShloMosaic Idealize.ShloMosaic.ValueIdx WindowMax

/-- 1 where the maximum over the `k × k` window around `(r, q)` equals the entry, 0 elsewhere. -/
def peak (k p : ℕ) (P : Fin 192 → Fin 192 → EReal) (r q : Fin 192) : EReal :=
  FloatOps.uitofp (F := Ideal) .f32 (FloatOps.cmpf (F := Ideal) (φ := .f32) .oeq (windowMax k p P r.val q.val) (P r q))

/-- The entry kept where it is the maximum of its 3 × 3, 5 × 5 and 7 × 7 neighbourhoods. -/
def keepPeaks (P : Fin 192 → Fin 192 → EReal) (r q : Fin 192) : EReal :=
  P r q * peak 3 1 P r q * peak 5 2 P r q * peak 7 3 P r q

/-- The same on every plane of a `[16, 80, 192, 192]` array. -/
def keepPeaks4 (X : (⟨4, ![16, 80, 192, 192]⟩ : Shape).Idx → EReal) : (⟨4, ![16, 80, 192, 192]⟩ : Shape).Idx → EReal :=
  fun i => keepPeaks (fun a c => X (ix4 (i 0) (i 1) a c)) (i 2) (i 3)

/-- The same on every plane of a `[1280, 192, 192]` array. -/
def keepPeaks3 (X : (⟨3, ![1280, 192, 192]⟩ : Shape).Idx → EReal) : (⟨3, ![1280, 192, 192]⟩ : Shape).Idx → EReal :=
  fun i => keepPeaks (fun a c => X (ix3 (i 0) a c)) (i 1) (i 2)

end Cert.Spec

end
-- ==== Proof.Body.lean ====
/-
  The kernel body's stored value as a function of the block it loads.

  The body pads the block by slabs of −∞ along its rows, takes the maximum of the k cuts at offsets 0 … k−1 (the
  maximum over k consecutive rows, −∞ outside the block), does the same along the columns, compares the result with
  the block, and multiplies the block by the three comparisons' 0/1 values (k = 3, 5, 7). Read at an entry (b, r, q),
  the maximum along the columns of the maxima along the rows is the maximum of plane b over the k × k window centred
  at (r, q), and the comparison's bit widened to a word and converted signed is the bit converted unsigned.
-/
import proofs.«174224_j73598559584661_2_alg».proof.Proof.Gen.KernelIdeal.Skeleton
import proofs.«174224_j73598559584661_2_alg».proof.Proof.LibWindowMax
import proofs.«174224_j73598559584661_2_alg».proof.Proof.Spec
import Idealize.ShloMosaic.Lib.KernelVsHost
import Idealize.ShloMosaic.Lib.ValueIdx
import Idealize.ShloMosaic.Lib.Pipeline.Value

noncomputable section

namespace Cert.KernelIdeal.Body

open Idealize.ShloMosaic Idealize.ShloMosaic.ValueIdx Cert.KernelIdeal WindowMax

/-- The word 0xFF800000 denotes −∞, the bottom of the extended reals. -/
theorem neg_inf : (FloatOps.ofBits (F := Ideal) .f32 0xFF800000#32) = (⊥ : EReal) := by
  show Ideal.ofBits .f32 0xFF800000#32 = ⊥
  simp [Ideal.ofBits, Ideal.ieee]

/-- The maximum over `k` consecutive rows starting `p` rows above, −∞ outside the block. -/
def rowPool (k p : ℕ) (x : FVec Ideal S8x192x192 .f32) : FVec Ideal S8x192x192 .f32 :=
  fun j => (Finset.range k).sup fun dh => padRead (fun a => x (ix3 (j 0) a (j 2))) p ((j 1).val + dh)

/-- The maximum over `k` consecutive columns starting `p` columns to the left, −∞ outside the block. -/
def colPool (k p : ℕ) (x : FVec Ideal S8x192x192 .f32) : FVec Ideal S8x192x192 .f32 :=
  fun j => (Finset.range k).sup fun dw => padRead (fun c => x (ix3 (j 0) (j 1) c)) p ((j 2).val + dw)

/-- Columns after rows: the maximum of the entry's plane over the `k × k` window. -/
theorem colPool_rowPool_apply (k p : ℕ) (x : FVec Ideal S8x192x192 .f32) (b : Fin 8) (r q : Fin 192) :
    colPool k p (rowPool k p x) (ix3 b r q) = windowMax k p (fun a c => x (ix3 b a c)) r.val q.val :=
  sup_padRead_sup_padRead k p (fun a c => x (ix3 b a c)) r.val q.val

/-! ## The chains of cuts and maxima, one per window size and axis -/

theorem rows3 (x : FVec Ideal S8x192x192 .f32) :
    (maximumf (maximumf (extractStridedSlice S8x192x192 ![0, 0, 0] (concatenate S8x194x192 1 [⟨S8x1x192, broadcast S8x1x192 (FloatOps.ofBits (F := Ideal) .f32 0xFF800000#32)⟩, ⟨S8x192x192, x⟩, ⟨S8x1x192, broadcast S8x1x192 (FloatOps.ofBits (F := Ideal) .f32 0xFF800000#32)⟩] Gen.concatenates_S8x1x192_S8x192x192_S8x1x192_S8x194x192_d1) Gen.slices_S8x194x192_o0_0_0_S8x192x192)
      (extractStridedSlice S8x192x192 ![0, 1, 0] (concatenate S8x194x192 1 [⟨S8x1x192, broadcast S8x1x192 (FloatOps.ofBits (F := Ideal) .f32 0xFF800000#32)⟩, ⟨S8x192x192, x⟩, ⟨S8x1x192, broadcast S8x1x192 (FloatOps.ofBits (F := Ideal) .f32 0xFF800000#32)⟩] Gen.concatenates_S8x1x192_S8x192x192_S8x1x192_S8x194x192_d1) Gen.slices_S8x194x192_o0_1_0_S8x192x192))
      (extractStridedSlice S8x192x192 ![0, 2, 0] (concatenate S8x194x192 1 [⟨S8x1x192, broadcast S8x1x192 (FloatOps.ofBits (F := Ideal) .f32 0xFF800000#32)⟩, ⟨S8x192x192, x⟩, ⟨S8x1x192, broadcast S8x1x192 (FloatOps.ofBits (F := Ideal) .f32 0xFF800000#32)⟩] Gen.concatenates_S8x1x192_S8x192x192_S8x1x192_S8x194x192_d1) Gen.slices_S8x194x192_o0_2_0_S8x192x192))
      = rowPool 3 1 x := by
  funext j
  obtain ⟨b, r, q, rfl⟩ : ∃ (b : Fin 8) (r : Fin 192) (q : Fin 192), j = ix3 b r q := ⟨j 0, j 1, j 2, eq_ix3 j⟩
  show _ = (Finset.range 3).sup fun dh => padRead (fun a => x (ix3 b a q)) 1 (r.val + dh)
  exact ((congrArg₂ max (congrArg₂ max (slice_pad_mid_apply 1 194 0 rfl x _ neg_inf Gen.concatenates_S8x1x192_S8x192x192_S8x1x192_S8x194x192_d1 Gen.slices_S8x194x192_o0_0_0_S8x192x192 b r q)
      (slice_pad_mid_apply 1 194 1 rfl x _ neg_inf Gen.concatenates_S8x1x192_S8x192x192_S8x1x192_S8x194x192_d1 Gen.slices_S8x194x192_o0_1_0_S8x192x192 b r q))
      (slice_pad_mid_apply 1 194 2 rfl x _ neg_inf Gen.concatenates_S8x1x192_S8x192x192_S8x1x192_S8x194x192_d1 Gen.slices_S8x194x192_o0_2_0_S8x192x192 b r q))).trans
    (sup_range_three (fun dh => padRead (fun a => x (ix3 b a q)) 1 (r.val + dh))).symm

theorem cols3 (x : FVec Ideal S8x192x192 .f32) :
    (maximumf (maximumf (extractStridedSlice S8x192x192 ![0, 0, 0] (concatenate S8x192x194 2 [⟨S8x192x1, broadcast S8x192x1 (FloatOps.ofBits (F := Ideal) .f32 0xFF800000#32)⟩, ⟨S8x192x192, x⟩, ⟨S8x192x1, broadcast S8x192x1 (FloatOps.ofBits (F := Ideal) .f32 0xFF800000#32)⟩] Gen.concatenates_S8x192x1_S8x192x192_S8x192x1_S8x192x194_d2) Gen.slices_S8x192x194_o0_0_0_S8x192x192)
      (extractStridedSlice S8x192x192 ![0, 0, 1] (concatenate S8x192x194 2 [⟨S8x192x1, broadcast S8x192x1 (FloatOps.ofBits (F := Ideal) .f32 0xFF800000#32)⟩, ⟨S8x192x192, x⟩, ⟨S8x192x1, broadcast S8x192x1 (FloatOps.ofBits (F := Ideal) .f32 0xFF800000#32)⟩] Gen.concatenates_S8x192x1_S8x192x192_S8x192x1_S8x192x194_d2) Gen.slices_S8x192x194_o0_0_1_S8x192x192))
      (extractStridedSlice S8x192x192 ![0, 0, 2] (concatenate S8x192x194 2 [⟨S8x192x1, broadcast S8x192x1 (FloatOps.ofBits (F := Ideal) .f32 0xFF800000#32)⟩, ⟨S8x192x192, x⟩, ⟨S8x192x1, broadcast S8x192x1 (FloatOps.ofBits (F := Ideal) .f32 0xFF800000#32)⟩] Gen.concatenates_S8x192x1_S8x192x192_S8x192x1_S8x192x194_d2) Gen.slices_S8x192x194_o0_0_2_S8x192x192))
      = colPool 3 1 x := by
  funext j
  obtain ⟨b, r, q, rfl⟩ : ∃ (b : Fin 8) (r : Fin 192) (q : Fin 192), j = ix3 b r q := ⟨j 0, j 1, j 2, eq_ix3 j⟩
  show _ = (Finset.range 3).sup fun dw => padRead (fun c => x (ix3 b r c)) 1 (q.val + dw)
  exact ((congrArg₂ max (congrArg₂ max (slice_pad_last_apply 1 194 0 rfl x _ neg_inf Gen.concatenates_S8x192x1_S8x192x192_S8x192x1_S8x192x194_d2 Gen.slices_S8x192x194_o0_0_0_S8x192x192 b r q)
      (slice_pad_last_apply 1 194 1 rfl x _ neg_inf Gen.concatenates_S8x192x1_S8x192x192_S8x192x1_S8x192x194_d2 Gen.slices_S8x192x194_o0_0_1_S8x192x192 b r q))
      (slice_pad_last_apply 1 194 2 rfl x _ neg_inf Gen.concatenates_S8x192x1_S8x192x192_S8x192x1_S8x192x194_d2 Gen.slices_S8x192x194_o0_0_2_S8x192x192 b r q))).trans
    (sup_range_three (fun dw => padRead (fun c => x (ix3 b r c)) 1 (q.val + dw))).symm

theorem rows5 (x : FVec Ideal S8x192x192 .f32) :
    (maximumf (maximumf (maximumf (maximumf (extractStridedSlice S8x192x192 ![0, 0, 0] (concatenate S8x196x192 1 [⟨S8x2x192, broadcast S8x2x192 (FloatOps.ofBits (F := Ideal) .f32 0xFF800000#32)⟩, ⟨S8x192x192, x⟩, ⟨S8x2x192, broadcast S8x2x192 (FloatOps.ofBits (F := Ideal) .f32 0xFF800000#32)⟩] Gen.concatenates_S8x2x192_S8x192x192_S8x2x192_S8x196x192_d1) Gen.slices_S8x196x192_o0_0_0_S8x192x192)
      (extractStridedSlice S8x192x192 ![0, 1, 0] (concatenate S8x196x192 1 [⟨S8x2x192, broadcast S8x2x192 (FloatOps.ofBits (F := Ideal) .f32 0xFF800000#32)⟩, ⟨S8x192x192, x⟩, ⟨S8x2x192, broadcast S8x2x192 (FloatOps.ofBits (F := Ideal) .f32 0xFF800000#32)⟩] Gen.concatenates_S8x2x192_S8x192x192_S8x2x192_S8x196x192_d1) Gen.slices_S8x196x192_o0_1_0_S8x192x192))
      (extractStridedSlice S8x192x192 ![0, 2, 0] (concatenate S8x196x192 1 [⟨S8x2x192, broadcast S8x2x192 (FloatOps.ofBits (F := Ideal) .f32 0xFF800000#32)⟩, ⟨S8x192x192, x⟩, ⟨S8x2x192, broadcast S8x2x192 (FloatOps.ofBits (F := Ideal) .f32 0xFF800000#32)⟩] Gen.concatenates_S8x2x192_S8x192x192_S8x2x192_S8x196x192_d1) Gen.slices_S8x196x192_o0_2_0_S8x192x192))
      (extractStridedSlice S8x192x192 ![0, 3, 0] (concatenate S8x196x192 1 [⟨S8x2x192, broadcast S8x2x192 (FloatOps.ofBits (F := Ideal) .f32 0xFF800000#32)⟩, ⟨S8x192x192, x⟩, ⟨S8x2x192, broadcast S8x2x192 (FloatOps.ofBits (F := Ideal) .f32 0xFF800000#32)⟩] Gen.concatenates_S8x2x192_S8x192x192_S8x2x192_S8x196x192_d1) Gen.slices_S8x196x192_o0_3_0_S8x192x192))
      (extractStridedSlice S8x192x192 ![0, 4, 0] (concatenate S8x196x192 1 [⟨S8x2x192, broadcast S8x2x192 (FloatOps.ofBits (F := Ideal) .f32 0xFF800000#32)⟩, ⟨S8x192x192, x⟩, ⟨S8x2x192, broadcast S8x2x192 (FloatOps.ofBits (F := Ideal) .f32 0xFF800000#32)⟩] Gen.concatenates_S8x2x192_S8x192x192_S8x2x192_S8x196x192_d1) Gen.slices_S8x196x192_o0_4_0_S8x192x192))
      = rowPool 5 2 x := by
  funext j
  obtain ⟨b, r, q, rfl⟩ : ∃ (b : Fin 8) (r : Fin 192) (q : Fin 192), j = ix3 b r q := ⟨j 0, j 1, j 2, eq_ix3 j⟩
  show _ = (Finset.range 5).sup fun dh => padRead (fun a => x (ix3 b a q)) 2 (r.val + dh)
  exact ((congrArg₂ max (congrArg₂ max (congrArg₂ max (congrArg₂ max (slice_pad_mid_apply 2 196 0 rfl x _ neg_inf Gen.concatenates_S8x2x192_S8x192x192_S8x2x192_S8x196x192_d1 Gen.slices_S8x196x192_o0_0_0_S8x192x192 b r q)
      (slice_pad_mid_apply 2 196 1 rfl x _ neg_inf Gen.concatenates_S8x2x192_S8x192x192_S8x2x192_S8x196x192_d1 Gen.slices_S8x196x192_o0_1_0_S8x192x192 b r q))
      (slice_pad_mid_apply 2 196 2 rfl x _ neg_inf Gen.concatenates_S8x2x192_S8x192x192_S8x2x192_S8x196x192_d1 Gen.slices_S8x196x192_o0_2_0_S8x192x192 b r q))
      (slice_pad_mid_apply 2 196 3 rfl x _ neg_inf Gen.concatenates_S8x2x192_S8x192x192_S8x2x192_S8x196x192_d1 Gen.slices_S8x196x192_o0_3_0_S8x192x192 b r q))
      (slice_pad_mid_apply 2 196 4 rfl x _ neg_inf Gen.concatenates_S8x2x192_S8x192x192_S8x2x192_S8x196x192_d1 Gen.slices_S8x196x192_o0_4_0_S8x192x192 b r q))).trans
    (sup_range_five (fun dh => padRead (fun a => x (ix3 b a q)) 2 (r.val + dh))).symm

theorem cols5 (x : FVec Ideal S8x192x192 .f32) :
    (maximumf (maximumf (maximumf (maximumf (extractStridedSlice S8x192x192 ![0, 0, 0] (concatenate S8x192x196 2 [⟨S8x192x2, broadcast S8x192x2 (FloatOps.ofBits (F := Ideal) .f32 0xFF800000#32)⟩, ⟨S8x192x192, x⟩, ⟨S8x192x2, broadcast S8x192x2 (FloatOps.ofBits (F := Ideal) .f32 0xFF800000#32)⟩] Gen.concatenates_S8x192x2_S8x192x192_S8x192x2_S8x192x196_d2) Gen.slices_S8x192x196_o0_0_0_S8x192x192)
      (extractStridedSlice S8x192x192 ![0, 0, 1] (concatenate S8x192x196 2 [⟨S8x192x2, broadcast S8x192x2 (FloatOps.ofBits (F := Ideal) .f32 0xFF800000#32)⟩, ⟨S8x192x192, x⟩, ⟨S8x192x2, broadcast S8x192x2 (FloatOps.ofBits (F := Ideal) .f32 0xFF800000#32)⟩] Gen.concatenates_S8x192x2_S8x192x192_S8x192x2_S8x192x196_d2) Gen.slices_S8x192x196_o0_0_1_S8x192x192))
      (extractStridedSlice S8x192x192 ![0, 0, 2] (concatenate S8x192x196 2 [⟨S8x192x2, broadcast S8x192x2 (FloatOps.ofBits (F := Ideal) .f32 0xFF800000#32)⟩, ⟨S8x192x192, x⟩, ⟨S8x192x2, broadcast S8x192x2 (FloatOps.ofBits (F := Ideal) .f32 0xFF800000#32)⟩] Gen.concatenates_S8x192x2_S8x192x192_S8x192x2_S8x192x196_d2) Gen.slices_S8x192x196_o0_0_2_S8x192x192))
      (extractStridedSlice S8x192x192 ![0, 0, 3] (concatenate S8x192x196 2 [⟨S8x192x2, broadcast S8x192x2 (FloatOps.ofBits (F := Ideal) .f32 0xFF800000#32)⟩, ⟨S8x192x192, x⟩, ⟨S8x192x2, broadcast S8x192x2 (FloatOps.ofBits (F := Ideal) .f32 0xFF800000#32)⟩] Gen.concatenates_S8x192x2_S8x192x192_S8x192x2_S8x192x196_d2) Gen.slices_S8x192x196_o0_0_3_S8x192x192))
      (extractStridedSlice S8x192x192 ![0, 0, 4] (concatenate S8x192x196 2 [⟨S8x192x2, broadcast S8x192x2 (FloatOps.ofBits (F := Ideal) .f32 0xFF800000#32)⟩, ⟨S8x192x192, x⟩, ⟨S8x192x2, broadcast S8x192x2 (FloatOps.ofBits (F := Ideal) .f32 0xFF800000#32)⟩] Gen.concatenates_S8x192x2_S8x192x192_S8x192x2_S8x192x196_d2) Gen.slices_S8x192x196_o0_0_4_S8x192x192))
      = colPool 5 2 x := by
  funext j
  obtain ⟨b, r, q, rfl⟩ : ∃ (b : Fin 8) (r : Fin 192) (q : Fin 192), j = ix3 b r q := ⟨j 0, j 1, j 2, eq_ix3 j⟩
  show _ = (Finset.range 5).sup fun dw => padRead (fun c => x (ix3 b r c)) 2 (q.val + dw)
  exact ((congrArg₂ max (congrArg₂ max (congrArg₂ max (congrArg₂ max (slice_pad_last_apply 2 196 0 rfl x _ neg_inf Gen.concatenates_S8x192x2_S8x192x192_S8x192x2_S8x192x196_d2 Gen.slices_S8x192x196_o0_0_0_S8x192x192 b r q)
      (slice_pad_last_apply 2 196 1 rfl x _ neg_inf Gen.concatenates_S8x192x2_S8x192x192_S8x192x2_S8x192x196_d2 Gen.slices_S8x192x196_o0_0_1_S8x192x192 b r q))
      (slice_pad_last_apply 2 196 2 rfl x _ neg_inf Gen.concatenates_S8x192x2_S8x192x192_S8x192x2_S8x192x196_d2 Gen.slices_S8x192x196_o0_0_2_S8x192x192 b r q))
      (slice_pad_last_apply 2 196 3 rfl x _ neg_inf Gen.concatenates_S8x192x2_S8x192x192_S8x192x2_S8x192x196_d2 Gen.slices_S8x192x196_o0_0_3_S8x192x192 b r q))
      (slice_pad_last_apply 2 196 4 rfl x _ neg_inf Gen.concatenates_S8x192x2_S8x192x192_S8x192x2_S8x192x196_d2 Gen.slices_S8x192x196_o0_0_4_S8x192x192 b r q))).trans
    (sup_range_five (fun dw => padRead (fun c => x (ix3 b r c)) 2 (q.val + dw))).symm

theorem rows7 (x : FVec Ideal S8x192x192 .f32) :
    (maximumf (maximumf (maximumf (maximumf (maximumf (maximumf (extractStridedSlice S8x192x192 ![0, 0, 0] (concatenate S8x198x192 1 [⟨S8x3x192, broadcast S8x3x192 (FloatOps.ofBits (F := Ideal) .f32 0xFF800000#32)⟩, ⟨S8x192x192, x⟩, ⟨S8x3x192, broadcast S8x3x192 (FloatOps.ofBits (F := Ideal) .f32 0xFF800000#32)⟩] Gen.concatenates_S8x3x192_S8x192x192_S8x3x192_S8x198x192_d1) Gen.slices_S8x198x192_o0_0_0_S8x192x192)
      (extractStridedSlice S8x192x192 ![0, 1, 0] (concatenate S8x198x192 1 [⟨S8x3x192, broadcast S8x3x192 (FloatOps.ofBits (F := Ideal) .f32 0xFF800000#32)⟩, ⟨S8x192x192, x⟩, ⟨S8x3x192, broadcast S8x3x192 (FloatOps.ofBits (F := Ideal) .f32 0xFF800000#32)⟩] Gen.concatenates_S8x3x192_S8x192x192_S8x3x192_S8x198x192_d1) Gen.slices_S8x198x192_o0_1_0_S8x192x192))
      (extractStridedSlice S8x192x192 ![0, 2, 0] (concatenate S8x198x192 1 [⟨S8x3x192, broadcast S8x3x192 (FloatOps.ofBits (F := Ideal) .f32 0xFF800000#32)⟩, ⟨S8x192x192, x⟩, ⟨S8x3x192, broadcast S8x3x192 (FloatOps.ofBits (F := Ideal) .f32 0xFF800000#32)⟩] Gen.concatenates_S8x3x192_S8x192x192_S8x3x192_S8x198x192_d1) Gen.slices_S8x198x192_o0_2_0_S8x192x192))
      (extractStridedSlice S8x192x192 ![0, 3, 0] (concatenate S8x198x192 1 [⟨S8x3x192, broadcast S8x3x192 (FloatOps.ofBits (F := Ideal) .f32 0xFF800000#32)⟩, ⟨S8x192x192, x⟩, ⟨S8x3x192, broadcast S8x3x192 (FloatOps.ofBits (F := Ideal) .f32 0xFF800000#32)⟩] Gen.concatenates_S8x3x192_S8x192x192_S8x3x192_S8x198x192_d1) Gen.slices_S8x198x192_o0_3_0_S8x192x192))
      (extractStridedSlice S8x192x192 ![0, 4, 0] (concatenate S8x198x192 1 [⟨S8x3x192, broadcast S8x3x192 (FloatOps.ofBits (F := Ideal) .f32 0xFF800000#32)⟩, ⟨S8x192x192, x⟩, ⟨S8x3x192, broadcast S8x3x192 (FloatOps.ofBits (F := Ideal) .f32 0xFF800000#32)⟩] Gen.concatenates_S8x3x192_S8x192x192_S8x3x192_S8x198x192_d1) Gen.slices_S8x198x192_o0_4_0_S8x192x192))
      (extractStridedSlice S8x192x192 ![0, 5, 0] (concatenate S8x198x192 1 [⟨S8x3x192, broadcast S8x3x192 (FloatOps.ofBits (F := Ideal) .f32 0xFF800000#32)⟩, ⟨S8x192x192, x⟩, ⟨S8x3x192, broadcast S8x3x192 (FloatOps.ofBits (F := Ideal) .f32 0xFF800000#32)⟩] Gen.concatenates_S8x3x192_S8x192x192_S8x3x192_S8x198x192_d1) Gen.slices_S8x198x192_o0_5_0_S8x192x192))
      (extractStridedSlice S8x192x192 ![0, 6, 0] (concatenate S8x198x192 1 [⟨S8x3x192, broadcast S8x3x192 (FloatOps.ofBits (F := Ideal) .f32 0xFF800000#32)⟩, ⟨S8x192x192, x⟩, ⟨S8x3x192, broadcast S8x3x192 (FloatOps.ofBits (F := Ideal) .f32 0xFF800000#32)⟩] Gen.concatenates_S8x3x192_S8x192x192_S8x3x192_S8x198x192_d1) Gen.slices_S8x198x192_o0_6_0_S8x192x192))
      = rowPool 7 3 x := by
  funext j
  obtain ⟨b, r, q, rfl⟩ : ∃ (b : Fin 8) (r : Fin 192) (q : Fin 192), j = ix3 b r q := ⟨j 0, j 1, j 2, eq_ix3 j⟩
  show _ = (Finset.range 7).sup fun dh => padRead (fun a => x (ix3 b a q)) 3 (r.val + dh)
  exact ((congrArg₂ max (congrArg₂ max (congrArg₂ max (congrArg₂ max (congrArg₂ max (congrArg₂ max (slice_pad_mid_apply 3 198 0 rfl x _ neg_inf Gen.concatenates_S8x3x192_S8x192x192_S8x3x192_S8x198x192_d1 Gen.slices_S8x198x192_o0_0_0_S8x192x192 b r q)
      (slice_pad_mid_apply 3 198 1 rfl x _ neg_inf Gen.concatenates_S8x3x192_S8x192x192_S8x3x192_S8x198x192_d1 Gen.slices_S8x198x192_o0_1_0_S8x192x192 b r q))
      (slice_pad_mid_apply 3 198 2 rfl x _ neg_inf Gen.concatenates_S8x3x192_S8x192x192_S8x3x192_S8x198x192_d1 Gen.slices_S8x198x192_o0_2_0_S8x192x192 b r q))
      (slice_pad_mid_apply 3 198 3 rfl x _ neg_inf Gen.concatenates_S8x3x192_S8x192x192_S8x3x192_S8x198x192_d1 Gen.slices_S8x198x192_o0_3_0_S8x192x192 b r q))
      (slice_pad_mid_apply 3 198 4 rfl x _ neg_inf Gen.concatenates_S8x3x192_S8x192x192_S8x3x192_S8x198x192_d1 Gen.slices_S8x198x192_o0_4_0_S8x192x192 b r q))
      (slice_pad_mid_apply 3 198 5 rfl x _ neg_inf Gen.concatenates_S8x3x192_S8x192x192_S8x3x192_S8x198x192_d1 Gen.slices_S8x198x192_o0_5_0_S8x192x192 b r q))
      (slice_pad_mid_apply 3 198 6 rfl x _ neg_inf Gen.concatenates_S8x3x192_S8x192x192_S8x3x192_S8x198x192_d1 Gen.slices_S8x198x192_o0_6_0_S8x192x192 b r q))).trans
    (sup_range_seven (fun dh => padRead (fun a => x (ix3 b a q)) 3 (r.val + dh))).symm

theorem cols7 (x : FVec Ideal S8x192x192 .f32) :
    (maximumf (maximumf (maximumf (maximumf (maximumf (maximumf (extractStridedSlice S8x192x192 ![0, 0, 0] (concatenate S8x192x198 2 [⟨S8x192x3, broadcast S8x192x3 (FloatOps.ofBits (F := Ideal) .f32 0xFF800000#32)⟩, ⟨S8x192x192, x⟩, ⟨S8x192x3, broadcast S8x192x3 (FloatOps.ofBits (F := Ideal) .f32 0xFF800000#32)⟩] Gen.concatenates_S8x192x3_S8x192x192_S8x192x3_S8x192x198_d2) Gen.slices_S8x192x198_o0_0_0_S8x192x192)
      (extractStridedSlice S8x192x192 ![0, 0, 1] (concatenate S8x192x198 2 [⟨S8x192x3, broadcast S8x192x3 (FloatOps.ofBits (F := Ideal) .f32 0xFF800000#32)⟩, ⟨S8x192x192, x⟩, ⟨S8x192x3, broadcast S8x192x3 (FloatOps.ofBits (F := Ideal) .f32 0xFF800000#32)⟩] Gen.concatenates_S8x192x3_S8x192x192_S8x192x3_S8x192x198_d2) Gen.slices_S8x192x198_o0_0_1_S8x192x192))
      (extractStridedSlice S8x192x192 ![0, 0, 2] (concatenate S8x192x198 2 [⟨S8x192x3, broadcast S8x192x3 (FloatOps.ofBits (F := Ideal) .f32 0xFF800000#32)⟩, ⟨S8x192x192, x⟩, ⟨S8x192x3, broadcast S8x192x3 (FloatOps.ofBits (F := Ideal) .f32 0xFF800000#32)⟩] Gen.concatenates_S8x192x3_S8x192x192_S8x192x3_S8x192x198_d2) Gen.slices_S8x192x198_o0_0_2_S8x192x192))
      (extractStridedSlice S8x192x192 ![0, 0, 3] (concatenate S8x192x198 2 [⟨S8x192x3, broadcast S8x192x3 (FloatOps.ofBits (F := Ideal) .f32 0xFF800000#32)⟩, ⟨S8x192x192, x⟩, ⟨S8x192x3, broadcast S8x192x3 (FloatOps.ofBits (F := Ideal) .f32 0xFF800000#32)⟩] Gen.concatenates_S8x192x3_S8x192x192_S8x192x3_S8x192x198_d2) Gen.slices_S8x192x198_o0_0_3_S8x192x192))
      (extractStridedSlice S8x192x192 ![0, 0, 4] (concatenate S8x192x198 2 [⟨S8x192x3, broadcast S8x192x3 (FloatOps.ofBits (F := Ideal) .f32 0xFF800000#32)⟩, ⟨S8x192x192, x⟩, ⟨S8x192x3, broadcast S8x192x3 (FloatOps.ofBits (F := Ideal) .f32 0xFF800000#32)⟩] Gen.concatenates_S8x192x3_S8x192x192_S8x192x3_S8x192x198_d2) Gen.slices_S8x192x198_o0_0_4_S8x192x192))
      (extractStridedSlice S8x192x192 ![0, 0, 5] (concatenate S8x192x198 2 [⟨S8x192x3, broadcast S8x192x3 (FloatOps.ofBits (F := Ideal) .f32 0xFF800000#32)⟩, ⟨S8x192x192, x⟩, ⟨S8x192x3, broadcast S8x192x3 (FloatOps.ofBits (F := Ideal) .f32 0xFF800000#32)⟩] Gen.concatenates_S8x192x3_S8x192x192_S8x192x3_S8x192x198_d2) Gen.slices_S8x192x198_o0_0_5_S8x192x192))
      (extractStridedSlice S8x192x192 ![0, 0, 6] (concatenate S8x192x198 2 [⟨S8x192x3, broadcast S8x192x3 (FloatOps.ofBits (F := Ideal) .f32 0xFF800000#32)⟩, ⟨S8x192x192, x⟩, ⟨S8x192x3, broadcast S8x192x3 (FloatOps.ofBits (F := Ideal) .f32 0xFF800000#32)⟩] Gen.concatenates_S8x192x3_S8x192x192_S8x192x3_S8x192x198_d2) Gen.slices_S8x192x198_o0_0_6_S8x192x192))
      = colPool 7 3 x := by
  funext j
  obtain ⟨b, r, q, rfl⟩ : ∃ (b : Fin 8) (r : Fin 192) (q : Fin 192), j = ix3 b r q := ⟨j 0, j 1, j 2, eq_ix3 j⟩
  show _ = (Finset.range 7).sup fun dw => padRead (fun c => x (ix3 b r c)) 3 (q.val + dw)
  exact ((congrArg₂ max (congrArg₂ max (congrArg₂ max (congrArg₂ max (congrArg₂ max (congrArg₂ max (slice_pad_last_apply 3 198 0 rfl x _ neg_inf Gen.concatenates_S8x192x3_S8x192x192_S8x192x3_S8x192x198_d2 Gen.slices_S8x192x198_o0_0_0_S8x192x192 b r q)
      (slice_pad_last_apply 3 198 1 rfl x _ neg_inf Gen.concatenates_S8x192x3_S8x192x192_S8x192x3_S8x192x198_d2 Gen.slices_S8x192x198_o0_0_1_S8x192x192 b r q))
      (slice_pad_last_apply 3 198 2 rfl x _ neg_inf Gen.concatenates_S8x192x3_S8x192x192_S8x192x3_S8x192x198_d2 Gen.slices_S8x192x198_o0_0_2_S8x192x192 b r q))
      (slice_pad_last_apply 3 198 3 rfl x _ neg_inf Gen.concatenates_S8x192x3_S8x192x192_S8x192x3_S8x192x198_d2 Gen.slices_S8x192x198_o0_0_3_S8x192x192 b r q))
      (slice_pad_last_apply 3 198 4 rfl x _ neg_inf Gen.concatenates_S8x192x3_S8x192x192_S8x192x3_S8x192x198_d2 Gen.slices_S8x192x198_o0_0_4_S8x192x192 b r q))
      (slice_pad_last_apply 3 198 5 rfl x _ neg_inf Gen.concatenates_S8x192x3_S8x192x192_S8x192x3_S8x192x198_d2 Gen.slices_S8x192x198_o0_0_5_S8x192x192 b r q))
      (slice_pad_last_apply 3 198 6 rfl x _ neg_inf Gen.concatenates_S8x192x3_S8x192x192_S8x192x3_S8x192x198_d2 Gen.slices_S8x192x198_o0_0_6_S8x192x192 b r q))).trans
    (sup_range_seven (fun dw => padRead (fun c => x (ix3 b r c)) 3 (q.val + dw))).symm

/-! ## The stored value -/

/-- 1 where the window maximum equals the entry, 0 elsewhere, over the whole block. -/
def mask (k p : ℕ) (x : FVec Ideal S8x192x192 .f32) : FVec Ideal S8x192x192 .f32 :=
  uitofp .f32 (cmpf .oeq (colPool k p (rowPool k p x)) x)

/-- The block times its three masks. -/
def stored (x : FVec Ideal S8x192x192 .f32) : FVec Ideal S8x192x192 .f32 :=
  mulf (mulf (mulf x (mask 3 1 x)) (mask 5 2 x)) (mask 7 3 x)

/-- The body's one store writes `stored` of the block it loaded. -/
theorem pay_eq (x : Vec Ideal S8x192x192 .f32) :
    Gen.k0_pay1 (F := Ideal) (Gen.k0_pay2 x) (Gen.k0_pay3 x) (Gen.k0_pay4 x) (Gen.k0_pay5 x) = stored x := by
  unfold Gen.k0_pay1 Gen.k0_pay5 Gen.k0_pay3 Gen.k0_pay4 Gen.k0_pay2
  dsimp only
  simp only [shapeCast_self, sitofp_extui_eq_uitofp, rows3, cols3, rows5, cols5, rows7, cols7]
  rfl

/-- At an entry: the entry of its plane kept where it is the maximum of its three neighbourhoods. -/
theorem stored_apply (x : FVec Ideal S8x192x192 .f32) (b : Fin 8) (r q : Fin 192) :
    stored x (ix3 b r q) = Cert.Spec.keepPeaks (fun a c => x (ix3 b a c)) r q := by
  unfold Cert.Spec.keepPeaks Cert.Spec.peak
  rw [← colPool_rowPool_apply 3 1 x b r q, ← colPool_rowPool_apply 5 2 x b r q, ← colPool_rowPool_apply 7 3 x b r q]
  rfl

end Cert.KernelIdeal.Body

end
-- ==== Proof.Planes.lean ====
/-
  The two reshapes around the kernel: `[16, 80, 192, 192]` to `[1280, 192, 192]` and back keep every 192 × 192 plane whole —
  plane (n, c) of the one is plane 80 n + c of the other (row-major positions) — so a function that acts on each plane by
  itself commutes with them.
-/
import proofs.«174224_j73598559584661_2_alg».proof.Proof.Spec
import Idealize.ShloMosaic.Lib.Pipeline.Value
import Idealize.ShloMosaic.Lib.ValueIdx

noncomputable section

namespace Cert.Planes

open Idealize.ShloMosaic Idealize.ShloMosaic.ValueIdx Cert.Spec

/-- Plane `B` of the flattened stack is plane `(B / 80, B % 80)`. -/
theorem flatten_apply (X : (⟨4, ![16, 80, 192, 192]⟩ : Shape).Idx → EReal)
    (h : (⟨4, ![16, 80, 192, 192]⟩ : Shape).ShapeCasts ⟨3, ![1280, 192, 192]⟩) (B : Fin 1280) (r q : Fin 192) :
    shapeCast ⟨3, ![1280, 192, 192]⟩ X h (ix3 B r q)
      = X (ix4 ⟨B.val / 80, by have := B.isLt; omega⟩ ⟨B.val % 80, by omega⟩ r q) := by
  refine shapeCast_apply X h (ix3 B r q) _ ?_
  rw [Shape.rowMajor_val_four, Shape.rowMajor_val_three]
  show ((B.val / 80 * 80 + B.val % 80) * 192 + r.val) * 192 + q.val = (B.val * 192 + r.val) * 192 + q.val
  have := Nat.div_add_mod B.val 80
  have e : B.val / 80 * 80 + B.val % 80 = B.val := by omega
  rw [e]

/-- Plane `(n, c)` of the unflattened stack is plane `80 n + c`. -/
theorem unflatten_apply (Y : (⟨3, ![1280, 192, 192]⟩ : Shape).Idx → EReal)
    (h : (⟨3, ![1280, 192, 192]⟩ : Shape).ShapeCasts ⟨4, ![16, 80, 192, 192]⟩) (n : Fin 16) (c : Fin 80) (r q : Fin 192) :
    shapeCast ⟨4, ![16, 80, 192, 192]⟩ Y h (ix4 n c r q)
      = Y (ix3 ⟨n.val * 80 + c.val, by have := n.isLt; have := c.isLt; omega⟩ r q) := by
  refine shapeCast_apply Y h (ix4 n c r q) _ ?_
  rw [Shape.rowMajor_val_four, Shape.rowMajor_val_three]
  rfl

/-- Flatten, keep the peaks of every plane, unflatten: keep the peaks of every plane. -/
theorem unflatten_keepPeaks3_flatten (X : (⟨4, ![16, 80, 192, 192]⟩ : Shape).Idx → EReal)
    (h : (⟨4, ![16, 80, 192, 192]⟩ : Shape).ShapeCasts ⟨3, ![1280, 192, 192]⟩)
    (h' : (⟨3, ![1280, 192, 192]⟩ : Shape).ShapeCasts ⟨4, ![16, 80, 192, 192]⟩) :
    shapeCast ⟨4, ![16, 80, 192, 192]⟩ (keepPeaks3 (shapeCast ⟨3, ![1280, 192, 192]⟩ X h)) h' = keepPeaks4 X := by
  funext i
  obtain ⟨n, c, r, q, rfl⟩ : ∃ (n : Fin 16) (c : Fin 80) (r q : Fin 192), i = ix4 n c r q := ⟨i 0, i 1, i 2, i 3, eq_ix4 i⟩
  rw [unflatten_apply]
  show keepPeaks (fun a c' => shapeCast ⟨3, ![1280, 192, 192]⟩ X h (ix3 ⟨n.val * 80 + c.val, _⟩ a c')) r q
    = keepPeaks (fun a c' => X (ix4 n c a c')) r q
  have e : (fun a c' => shapeCast ⟨3, ![1280, 192, 192]⟩ X h
      (ix3 (⟨n.val * 80 + c.val, by have := n.isLt; have := c.isLt; omega⟩ : Fin 1280) a c')) = fun a c' => X (ix4 n c a c') := by
    funext a c'
    rw [flatten_apply]
    have hn := n.isLt
    have hc := c.isLt
    have e1 : (⟨(n.val * 80 + c.val) / 80, by omega⟩ : Fin 16) = n := Fin.ext (by show (n.val * 80 + c.val) / 80 = n.val; omega)
    have e2 : (⟨(n.val * 80 + c.val) % 80, by omega⟩ : Fin 80) = c := Fin.ext (by show (n.val * 80 + c.val) % 80 = c.val; omega)
    rw [e1, e2]
  rw [e]

end Cert.Planes

end
-- ==== Proof.KValue.lean ====
/-
  What the idealized kernel's program leaves in its result array.

  The region's input array is the argument flattened to 1280 planes; grid point t loads planes 8 t … 8 t + 7 and writes
  back, to the same planes of the output array, each entry kept where it is the maximum of its three neighbourhoods
  within its plane. The 160 blocks tile the output array, so after the region it holds that function of the whole
  input array; the reshape after the region unflattens the planes.
-/
import proofs.«174224_j73598559584661_2_alg».proof.Proof.Gen.KernelIdeal.Frame
import proofs.«174224_j73598559584661_2_alg».proof.Proof.Body
import proofs.«174224_j73598559584661_2_alg».proof.Proof.Spec
import proofs.«174224_j73598559584661_2_alg».proof.Proof.Planes
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.KValue

open Cert.KernelIdeal Cert.KernelIdeal.Gen Cert.Spec

variable (m : (ℓ : Loc nD τ sig) → Buf (Elt Ideal) ℓ) (ρ : Dev nD → PrngReg)

theorem hz : (![0, 0, 0] : Fin 3 → Nat) = fun _ => 0 := funext fun a => by fin_cases a <;> rfl

/-- Both windows' blocks at point `t` start at plane `8 t`, row 0, column 0. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The region finds its input array at the argument flattened. -/
theorem V_main_v0 (c : Dev nD) : (V m c main_v0 : S1280x192x192.Idx → EReal)
    = shapeCast S1280x192x192 (m ((c : Thread nD τ).loc main_arg0)) Gen.shapeCasts_S16x80x192x192_S1280x192x192 := by
  show StableHlo.after hostOps0 (fun b => m (c, b)) (Proc.devRef .tc main_v0) = _
  after_results
  rfl

/-- The input window's block at point `t` is planes `8 t … 8 t + 7` of the region's input array. -/
theorem iblk_apply (c : Dev nD) (t : Fin cfg0.N) (x : S8x192x192.Idx) (k : S1280x192x192.Idx)
    (hk0 : (k 0).val = t.val * 8 + (x 0).val) (hk1 : (k 1).val = (x 1).val) (hk2 : (k 2).val = (x 2).val) :
    (iblk m c 0 t : Vec Ideal S8x192x192 .f32) x = (V m c main_v0 : S1280x192x192.Idx → EReal) k := by
  obtain ⟨e0, e1, e2, -⟩ := idx_facts t
  unfold iblk
  rw [View.read_apply]
  show V m c main_v0 _ = V m c main_v0 _
  congr 1
  funext a
  apply Fin.ext
  match a with
  | ⟨0, _⟩ => show win0_0.index t 0 * 8 + 1 * (x 0).val = (k 0).val; rw [e0, hk0]; omega
  | ⟨1, _⟩ => show win0_0.index t 1 * 192 + 1 * (x 1).val = (k 1).val; rw [e1, hk1]; omega
  | ⟨2, _⟩ => show win0_0.index t 2 * 192 + 1 * (x 2).val = (k 2).val; rw [e2, hk2]; omega

/-- One point: if a block holds planes `8 T … 8 T + 7` of `X`, what the body stores at an entry of the block is
    `keepPeaks3 X` at the entry's place in the array. -/
theorem point_eq (X : S1280x192x192.Idx → EReal) (x0 : Vec Ideal S8x192x192 .f32) (T : ℕ)
    (hx : ∀ (y : S8x192x192.Idx) (k : S1280x192x192.Idx), (k 0).val = T * 8 + (y 0).val → (k 1).val = (y 1).val →
      (k 2).val = (y 2).val → x0 y = X k)
    (y : S8x192x192.Idx) (i : S1280x192x192.Idx) (hi0 : (i 0).val = T * 8 + (y 0).val) (hi1 : (i 1).val = (y 1).val)
    (hi2 : (i 2).val = (y 2).val) :
    Body.stored x0 y = keepPeaks3 X i := by
  obtain ⟨b, r, q, rfl⟩ : ∃ (b : Fin 8) (r : Fin 192) (q : Fin 192), y = ix3 b r q := ⟨y 0, y 1, y 2, eq_ix3 y⟩
  obtain ⟨B, r', q', rfl⟩ : ∃ (B : Fin 1280) (r' : Fin 192) (q' : Fin 192), i = ix3 B r' q' := ⟨i 0, i 1, i 2, eq_ix3 i⟩
  obtain rfl : r' = r := Fin.ext hi1
  obtain rfl : q' = q := Fin.ext hi2
  rw [Body.stored_apply]
  show keepPeaks (fun a c => x0 (ix3 b a c)) r' q' = keepPeaks (fun a c => X (ix3 B a c)) r' q'
  have e : (fun a c => x0 (ix3 b a c)) = fun a c => X (ix3 B a c) :=
    funext fun a => funext fun c => hx (ix3 b a c) (ix3 B a c) hi0 rfl rfl
  rw [e]

/-- WHAT POINT `t` WRITES BACK is block `t` of `keepPeaks3` of the region's input array. -/
theorem flushed_eq (c : Dev nD) (t : Fin cfg0.N) :
    (dats m 0 c).flushed 1 t = ((cfg0.win 1).blk t).view.read (Elt Ideal) (keepPeaks3 (V m c main_v0)) := by
  show (cfg0.win 1).cut (grid0.coords t) ((dats m 0 c).after 1 t) = _
  rw [after0_1]
  unfold out0_1
  rw [View.canon_unit_zero hz]
  simp only [View.ld_unit_zero (S := S8x192x192) hz]
  rw [Body.pay_eq]
  obtain ⟨-, -, -, e0, e1, e2⟩ := idx_facts t
  funext y
  refine point_eq (V m c main_v0) (iblk m c 0 t) t.val (fun y k h0 h1 h2 => iblk_apply m c t y k h0 h1 h2) y
    (((cfg0.win 1).blk t).view.emb y) ?_ ?_ ?_
  · show win0_1.index t 0 * 8 + 1 * (y 0).val = t.val * 8 + (y 0).val; rw [e0]; omega
  · show win0_1.index t 1 * 192 + 1 * (y 1).val = (y 1).val; rw [e1]; omega
  · show win0_1.index t 2 * 192 + 1 * (y 2).val = (y 2).val; rw [e2]; omega

/-- An index of the output array is in point `t`'s block iff each coordinate is in the block's range on its axis. -/
theorem mem_blk (t : Fin cfg0.N) (i : S1280x192x192.Idx) :
    i ∈ ((cfg0.win 1).blk t).view.set ↔ ∀ a : Fin 3, win0_1.index t a * S8x192x192.size a ≤ (i a).val
      ∧ (i a).val < win0_1.index t a * S8x192x192.size a + S8x192x192.size a := by
  show i ∈ ((View.whole main_v1).slice (win0_1.rect t)).set ↔ _
  rw [View.set_slice_whole, Rect.mem_set_unit]
  exact Iff.rfl

/-- The blocks tile the output array: plane `B` is in the block of point `B / 8`. -/
theorem cover (i : S1280x192x192.Idx) :
    ∃ t : Fin cfg0.N, (cfg0.win 1).flush t = true ∧ i ∈ ((cfg0.win 1).blk t).view.set := by
  have hi0 : (i 0).val < 1280 := (i 0).isLt
  have hi1 : (i 1).val < 192 := (i 1).isLt
  have hi2 : (i 2).val < 192 := (i 2).isLt
  have hN : grid0.N = 160 := N_0
  let t : Fin cfg0.N := ⟨(i 0).val / 8, by show (i 0).val / 8 < grid0.N; rw [hN]; omega⟩
  obtain ⟨-, -, -, e0, e1, e2⟩ := idx_facts t
  have ht : t.val = (i 0).val / 8 := rfl
  refine ⟨t, flush0_1 t, ?_⟩
  rw [mem_blk]
  intro a
  match a with
  | ⟨0, _⟩ => show win0_1.index t 0 * 8 ≤ (i 0).val ∧ (i 0).val < win0_1.index t 0 * 8 + 8; rw [e0, ht]; omega
  | ⟨1, _⟩ => show win0_1.index t 1 * 192 ≤ (i 1).val ∧ (i 1).val < win0_1.index t 1 * 192 + 192; rw [e1]; omega
  | ⟨2, _⟩ => show win0_1.index t 2 * 192 ≤ (i 2).val ∧ (i 2).val < win0_1.index t 2 * 192 + 192; rw [e2]; omega

/-- THE OUTPUT ARRAY after the region: `keepPeaks3` of the region's input array. -/
theorem final (c : Dev nD) : (dats m 0 c).arrAt 1 cfg0.N = keepPeaks3 (V m c main_v0) :=
  (dats m 0 c).arrAt_eq_of_cover 1 (keepPeaks3 (V m c main_v0)) (fun t _ => flushed_eq m c t) (cover)

/-- The program's result: the reshape after the region applied to the output array. -/
theorem tail_eq (c : Dev nD) :
    (Pipeline.afterTail₀ cfgs (dats m) 0 (V0 m) [hostOps1] c main_v2 : S16x80x192x192.Idx → EReal)
      = shapeCast S16x80x192x192 ((dats m 0 c).arrAt 1 cfg0.N) Gen.shapeCasts_S1280x192x192_S16x80x192x192 := by
  unfold Pipeline.afterTail₀
  show StableHlo.after hostOps1 _ (Proc.devRef .tc main_v2) = _
  after_results
  have e := Pipeline.withArrays_arr spec0 launch0.win.arr_inj c (V0 m c) (fun w => (dats m 0 c).arrAt w (cfgs 0).N) 1
  funext i
  show shapeCast S16x80x192x192 (Pipeline.withArrays spec0 c (V0 m c) (fun w => (dats m 0 c).arrAt w (cfgs 0).N)
    (Proc.devRef .tc (Pipeline.arrRef spec0 1))) Gen.shapeCasts_S1280x192x192_S16x80x192x192 i = _
  rw [e]

/-- The program's result is `keepPeaks4` of its argument. -/
theorem result (c : Dev nD) :
    (Pipeline.afterTail₀ cfgs (dats m) 0 (V0 m) [hostOps1] c main_v2 : S16x80x192x192.Idx → EReal)
      = keepPeaks4 (m ((c : Thread nD τ).loc main_arg0)) := by
  rw [tail_eq, final, V_main_v0]
  exact Cert.Planes.unflatten_keepPeaks3_flatten _ _ _

/-- The run, read: every weakly fair execution ends with the result array at `keepPeaks4` of the argument and the
    argument unchanged. -/
theorem run : θ_run defs (onTc (τ := τ) (main (F := Ideal))) ⟨m, fun _ => 0, ρ⟩ fun r => ∀ c : Dev nD,
      r.2.mem ((c : Thread nD τ).loc main_v2) = keepPeaks4 (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result m c),
        ((h c).2 main_arg0 (Pipeline.mem_restRefs_of main_arg0 (by decide) (by decide))).trans (W_main_arg0 m (dats m) c)⟩)
    (run_main m ρ)

end Cert.KernelIdeal.KValue

end
-- ==== Proof.RefValue.lean ====
/-
  The reference computes `keepPeaks4` of its argument.

  Its three window reductions are the host's `reduce_window` by `max` from −∞ with k − 1 rows and columns of padding split
  evenly, that is the window maximum of the entry's plane; the comparisons, conversions and products are read entry by
  entry.
-/
import proofs.«174224_j73598559584661_2_alg».proof.Proof.Gen.ReferenceIdeal.Read
import proofs.«174224_j73598559584661_2_alg».proof.Proof.Spec

noncomputable section

namespace Cert.ReferenceIdeal.RefValue

open Idealize.ShloMosaic Idealize.ShloMosaic.ValueIdx Cert.ReferenceIdeal Cert.ReferenceIdeal.Read WindowMax Cert.Spec

/-- The reductions start from −∞. -/
theorem init0 (j : S_.Idx) : val_main_v0 (F := Ideal) j = (⊥ : EReal) := by
  rw [val_main_v0_apply, val_main_cst_apply]
  show Ideal.ofBits .f32 0xFF800000#32 = ⊥
  simp [Ideal.ofBits, Ideal.ieee]
theorem init3 (j : S_.Idx) : val_main_v3 (F := Ideal) j = (⊥ : EReal) := by
  rw [val_main_v3_apply, val_main_cst_0_apply]
  show Ideal.ofBits .f32 0xFF800000#32 = ⊥
  simp [Ideal.ofBits, Ideal.ieee]
theorem init6 (j : S_.Idx) : val_main_v6 (F := Ideal) j = (⊥ : EReal) := by
  rw [val_main_v6_apply, val_main_cst_1_apply]
  show Ideal.ofBits .f32 0xFF800000#32 = ⊥
  simp [Ideal.ofBits, Ideal.ieee]

theorem pool3 (x0 : S16x80x192x192.Idx → EReal) (n : Fin 16) (c : Fin 80) (r q : Fin 192) :
    val_main_v1 (F := Ideal) x0 (ix4 n c r q) = windowMax 3 1 (fun a b => x0 (ix4 n c a b)) r.val q.val := by
  unfold val_main_v1
  exact reduceWindow_max_apply 3 1 x0 _ init0 _ _ n c r q
theorem pool5 (x0 : S16x80x192x192.Idx → EReal) (n : Fin 16) (c : Fin 80) (r q : Fin 192) :
    val_main_v4 (F := Ideal) x0 (ix4 n c r q) = windowMax 5 2 (fun a b => x0 (ix4 n c a b)) r.val q.val := by
  unfold val_main_v4
  exact reduceWindow_max_apply 5 2 x0 _ init3 _ _ n c r q
theorem pool7 (x0 : S16x80x192x192.Idx → EReal) (n : Fin 16) (c : Fin 80) (r q : Fin 192) :
    val_main_v7 (F := Ideal) x0 (ix4 n c r q) = windowMax 7 3 (fun a b => x0 (ix4 n c a b)) r.val q.val := by
  unfold val_main_v7
  exact reduceWindow_max_apply 7 3 x0 _ init6 _ _ n c r q

/-- The reference's result is `keepPeaks4` of its argument. -/
theorem result_eq (x0 : S16x80x192x192.Idx → EReal) : val_main_v14 (F := Ideal) x0 = keepPeaks4 x0 := by
  funext i
  obtain ⟨n, c, r, q, rfl⟩ : ∃ (n : Fin 16) (c : Fin 80) (r q : Fin 192), i = ix4 n c r q := ⟨i 0, i 1, i 2, i 3, eq_ix4 i⟩
  rw [val_main_v14_apply, val_main_v13_apply, val_main_v12_apply, val_main_v11_apply, val_main_v10_apply, val_main_v9_apply,
    val_main_v8_apply, val_main_v5_apply, val_main_v2_apply, pool3, pool5, pool7]
  rfl

end Cert.ReferenceIdeal.RefValue

end
-- ==== Proof.lean ====
/-
  The idealized kernel and the idealized reference compute one function of the argument.

  On every 192 × 192 plane of the `[16, 80, 192, 192]` argument both keep an entry where it equals the maximum of its
  3 × 3, 5 × 5 and 7 × 7 neighbourhoods (−∞ outside the plane) and replace it by its product with 0 elsewhere: the entry
  times the three comparisons' 0/1 values, multiplied in the same order. The reference takes each neighbourhood's
  maximum by one window reduction from −∞; the kernel flattens the planes, pads a block of eight planes by −∞, takes
  the maximum over k consecutive rows and then over k consecutive columns, and unflattens. A maximum over a square is
  the maximum over its columns of the maxima over their rows, on all extended reals, so no input needs to be finite.
  The three frames are the generated ones (the reference's is its generated run with the result dropped); nothing was
  rewritten by the idealization, so `preserves` is trivial.
-/
import proofs.«174224_j73598559584661_2_alg».proof.Defs
import proofs.«174224_j73598559584661_2_alg».proof.Proof.Gen.Kernel
import proofs.«174224_j73598559584661_2_alg».proof.Proof.Gen.Kernel.Skeleton
import proofs.«174224_j73598559584661_2_alg».proof.Proof.Gen.Kernel.Launch
import proofs.«174224_j73598559584661_2_alg».proof.Proof.Gen.Kernel.Points
import proofs.«174224_j73598559584661_2_alg».proof.Proof.Gen.Kernel.Frame
import proofs.«174224_j73598559584661_2_alg».proof.Proof.Gen.KernelIdeal
import proofs.«174224_j73598559584661_2_alg».proof.Proof.Gen.KernelIdeal.Skeleton
import proofs.«174224_j73598559584661_2_alg».proof.Proof.Gen.KernelIdeal.Launch
import proofs.«174224_j73598559584661_2_alg».proof.Proof.Gen.KernelIdeal.Points
import proofs.«174224_j73598559584661_2_alg».proof.Proof.Gen.KernelIdeal.Frame
import proofs.«174224_j73598559584661_2_alg».proof.Proof.Gen.ReferenceIdeal
import proofs.«174224_j73598559584661_2_alg».proof.Proof.Gen.Pre_finite_inputs
import proofs.«174224_j73598559584661_2_alg».proof.Proof.Gen.ReferenceIdeal.Run
import proofs.«174224_j73598559584661_2_alg».proof.Proof.Gen.ReferenceIdeal.Read
import proofs.«174224_j73598559584661_2_alg».proof.Proof.KValue
import proofs.«174224_j73598559584661_2_alg».proof.Proof.RefValue
import Idealize.ShloMosaic.Adequacy
import Idealize.ShloMosaic.Init

noncomputable section

namespace Cert.Proof

open Idealize.ShloMosaic Idealize.SL.Sem Cert.Kernel

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `keepPeaks4` of arguments that agree. -/
theorem algebraic : Cert.algebraic_KernelIdeal_ReferenceIdeal := by
  intro m ρ m' ρ' _ hagree
  refine ⟨fun c => Cert.Spec.keepPeaks4 (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
